-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192 : Shape := ⟨2, ![32, 8192]⟩
abbrev S8192x8192 : Shape := ⟨2, ![8192, 8192]⟩
abbrev S8192 : Shape := ⟨1, ![8192]⟩
abbrev S_ : Shape := ⟨0, ![]⟩

class Facts : Prop where
  bcast_S_S32x8192 : S_.BroadcastsInDim S32x8192 (![] : Fin 0 → Fin S32x8192.rank)
  reducesTo_S32x8192_S_d0_1 : S32x8192.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S32x8192 .f32) (main_arg1 : FVec F S8192x8192 .f32) (main_arg2 : IVec S8192 32) : IVec S_ 1 :=
  let main_v0 : FVec F S32x8192 .f32 := Host.absf main_arg0
  let main_cst : FVec F S_ .f32 := constant S_ .f32 0x7F800000#32
  let main_v1 : FVec F S32x8192 .f32 := broadcastInDim S32x8192 ![] bcast_S_S32x8192 main_cst
  let main_v2 : IVec S32x8192 1 := cmpf .olt main_v0 main_v1
  let main_c : IVec S_ 1 := constantI S_ 1 1#1
  let main_v3 : IVec S_ 1 := (fun x v => Host.reduce IntOp.andi x v reducesTo_S32x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S32x8192 : Shape := ⟨2, ![32, 8192]⟩
abbrev S8192x8192 : Shape := ⟨2, ![8192, 8192]⟩
abbrev S8192 : Shape := ⟨1, ![8192]⟩
abbrev S_ : Shape := ⟨0, ![]⟩
abbrev S1 : Shape := ⟨1, ![1]⟩
abbrev S32 : Shape := ⟨1, ![32]⟩
abbrev S32x1024 : Shape := ⟨2, ![32, 1024]⟩
abbrev S1024x2048 : Shape := ⟨2, ![1024, 2048]⟩
abbrev S32x2048 : Shape := ⟨2, ![32, 2048]⟩
abbrev S8192x1 : Shape := ⟨2, ![8192, 1]⟩
abbrev S32x8191 : Shape := ⟨2, ![32, 8191]⟩
abbrev S8191 : Shape := ⟨1, ![8191]⟩
abbrev S8191x1 : Shape := ⟨2, ![8191, 1]⟩

abbrev nBuf : Space → Nat
  | .hbm => 44
  | .vmem => 7
  | .smem => 0
  | _ => 0

abbrev bufTy : (tb : Table) → Fin (tcTables nBuf tb) → BufTy
  | .hbm, ⟨0, _⟩ => ⟨S32x8192, .f32⟩
  | .hbm, ⟨1, _⟩ => ⟨S8192x8192, .f32⟩
  | .hbm, ⟨2, _⟩ => ⟨S8192, .i32⟩
  | .hbm, ⟨3, _⟩ => ⟨S_, .i32⟩
  | .hbm, ⟨4, _⟩ => ⟨S1, .i32⟩
  | .hbm, ⟨5, _⟩ => ⟨S_, .f32⟩
  | .hbm, ⟨6, _⟩ => ⟨S32, .f32⟩
  | .hbm, ⟨7, _⟩ => ⟨S32x8192, .f32⟩
  | .hbm, ⟨8, _⟩ => ⟨S32x8192, .f32⟩
  | .hbm, ⟨9, _⟩ => ⟨S_, .f32⟩
  | .hbm, ⟨10, _⟩ => ⟨S32x8192, .f32⟩
  | .hbm, ⟨11, _⟩ => ⟨S32x8192, .i1⟩
  | .hbm, ⟨12, _⟩ => ⟨S_, .i32⟩
  | .hbm, ⟨13, _⟩ => ⟨S8192, .i32⟩
  | .hbm, ⟨14, _⟩ => ⟨S8192, .i1⟩
  | .hbm, ⟨15, _⟩ => ⟨S_, .i32⟩
  | .hbm, ⟨16, _⟩ => ⟨S8192, .i32⟩
  | .hbm, ⟨17, _⟩ => ⟨S8192, .i32⟩
  | .hbm, ⟨18, _⟩ => ⟨S8192, .i32⟩
  | .hbm, ⟨19, _⟩ => ⟨S8192x1, .i32⟩
  | .hbm, ⟨20, _⟩ => ⟨S32x8192, .i1⟩
  | .hbm, ⟨21, _⟩ => ⟨S_, .i32⟩
  | .hbm, ⟨22, _⟩ => ⟨S1, .i32⟩
  | .hbm, ⟨23, _⟩ => ⟨S_, .i1⟩
  | .hbm, ⟨24, _⟩ => ⟨S32, .i1⟩
  | .hbm, ⟨25, _⟩ => ⟨S32x8192, .i1⟩
  | .hbm, ⟨26, _⟩ => ⟨S32x8191, .i1⟩
  | .hbm, ⟨27, _⟩ => ⟨S32x8191, .f32⟩
  | .hbm, ⟨28, _⟩ => ⟨S_, .f32⟩
  | .hbm, ⟨29, _⟩ => ⟨S32x8192, .f32⟩
  | .hbm, ⟨30, _⟩ => ⟨S8191, .i32⟩
  | .hbm, ⟨31, _⟩ => ⟨S_, .i32⟩
  | .hbm, ⟨32, _⟩ => ⟨S8191, .i32⟩
  | .hbm, ⟨33, _⟩ => ⟨S8191, .i1⟩
  | .hbm, ⟨34, _⟩ => ⟨S_, .i32⟩
  | .hbm, ⟨35, _⟩ => ⟨S8191, .i32⟩
  | .hbm, ⟨36, _⟩ => ⟨S8191, .i32⟩
  | .hbm, ⟨37, _⟩ => ⟨S8191, .i32⟩
  | .hbm, ⟨38, _⟩ => ⟨S8191x1, .i32⟩
  | .hbm, ⟨39, _⟩ => ⟨S32x8192, .f32⟩
  | .hbm, ⟨40, _⟩ => ⟨S_, .f32⟩
  | .hbm, ⟨41, _⟩ => ⟨S32x8192, .f32⟩
  | .hbm, ⟨42, _⟩ => ⟨S32x8192, .i1⟩
  | .hbm, ⟨43, _⟩ => ⟨S32x8192, .i1⟩
  | .local _ .vmem, ⟨0, _⟩ => ⟨S32x1024, .f32⟩
  | .local _ .vmem, ⟨1, _⟩ => ⟨S32x1024, .f32⟩
  | .local _ .vmem, ⟨2, _⟩ => ⟨S1024x2048, .f32⟩
  | .local _ .vmem, ⟨3, _⟩ => ⟨S1024x2048, .f32⟩
  | .local _ .vmem, ⟨4, _⟩ => ⟨S32x2048, .f32⟩
  | .local _ .vmem, ⟨5, _⟩ => ⟨S32x2048, .f32⟩
  | .local _ .vmem, ⟨6, _⟩ => ⟨S32x2048, .f32⟩
  | _, _ => ⟨S32x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_c_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_c_6 : Ref sig .tc := ⟨.hbm, 31, rfl⟩
abbrev main_v20 : Ref sig .tc := ⟨.hbm, 32, rfl⟩
abbrev main_v21 : Ref sig .tc := ⟨.hbm, 33, rfl⟩
abbrev main_c_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S1 : S_.BroadcastsInDim S1 (![] : Fin 0 → Fin S1.rank)
  bcast_S_S32 : S_.BroadcastsInDim S32 (![] : Fin 0 → Fin S32.rank)
  inb_S32x2048_S32x2048_0_0 : ∀ a, (![0, 0] : Fin 2 → Nat) a + S32x2048.size a ≤ S32x2048.size a
  h_S32x2048 : 0 < S32x2048.numel
  shapeCasts_S32x2048_S32x2048 : S32x2048.ShapeCasts S32x2048
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  bcast_S_S32x8192 : S_.BroadcastsInDim S32x8192 (![] : Fin 0 → Fin S32x8192.rank)
  bcast_S_S8192 : S_.BroadcastsInDim S8192 (![] : Fin 0 → Fin S8192.rank)
  bcast_S8192_S8192x1_0 : S8192.BroadcastsInDim S8192x1 (![0] : Fin 1 → Fin S8192x1.rank)
  slices_S32x8192_S32x8191_0_1 : S32x8192.Slices ![0, 1] S32x8191
  slices_S8192_S8191_1 : S8192.Slices ![1] S8191
  bcast_S_S8191 : S_.BroadcastsInDim S8191 (![] : Fin 0 → Fin S8191.rank)
  bcast_S8191_S8191x1_0 : S8191.BroadcastsInDim S8191x1 (![0] : Fin 1 → Fin S8191x1.rank)
  scatter_S32x8192_S1_S32_0_1_1_0_wf : ScatterDims.WF S32x8192 S1 S32 [0] [1] [1] 0
  dot_S32x1024_S1024x2048_S32x2048_1_0_0_1_n_n_wf : DotDims.WF S32x1024 S1024x2048 S32x2048 [1] [0] [0] [1] [] []
  gather_S32x8192_S8192x1_S32x8192_0_1_n_n_1_1_321_wf : GatherDims.WF S32x8192 S8192x1 S32x8192 [0] [1] [] [1] [] 1 ![32, 1]
  scatter_S32x8192_S8191x1_S32x8191_0_1_1_1_wf : ScatterDims.WF S32x8192 S8191x1 S32x8191 [0] [1] [1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1024.size a ≤ S32x8192.size a
  hwx0_0 : ∀ i : grid0.Coords, EltTy.bits .f32 = 32 ∨ (Rect.block (s := S32x8192) S32x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x8192.size a
  hwx0_1 : ∀ i : grid0.Coords, EltTy.bits .f32 = 32 ∨ (Rect.block (s := S8192x8192) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x2048.size a ≤ S32x8192.size a
  hwx0_2 : ∀ i : grid0.Coords, EltTy.bits .f32 = 32 ∨ (Rect.block (s := S32x8192) S32x2048.size (cc0_transform_2 i) (hinb0_2 i)).WholeWords (EltTy.packing .f32)

variable [Facts₀]

def scatter_S32x8192_S1_S32_0_1_1_0 : ScatterDims S32x8192 S1 S32 where
  updateWindowDims := [0]
  insertedWindowDims := [1]
  scatterDimsToOperandDims := [1]
  indexVectorDim := 0
  wf := scatter_S32x8192_S1_S32_0_1_1_0_wf
def dot_S32x1024_S1024x2048_S32x2048_1_0_0_1_n_n : DotDims S32x1024 S1024x2048 S32x2048 where
  lhsContracting := [1]
  rhsContracting := [0]
  lhsNonContracting := [0]
  rhsNonContracting := [1]
  lhsBatch := []
  rhsBatch := []
  wf := dot_S32x1024_S1024x2048_S32x2048_1_0_0_1_n_n_wf
def gather_S32x8192_S8192x1_S32x8192_0_1_n_n_1_1_321 : GatherDims S32x8192 S8192x1 S32x8192 where
  offsetDims := [0]
  collapsedSliceDims := [1]
  operandBatchingDims := []
  startIndicesBatchingDims := []
  startIndexMap := [1]
  indexVectorDim := 1
  sliceSizes := ![32, 1]
  wf := gather_S32x8192_S8192x1_S32x8192_0_1_n_n_1_1_321_wf
def scatter_S32x8192_S8191x1_S32x8191_0_1_1_1 : ScatterDims S32x8192 S8191x1 S32x8191 where
  updateWindowDims := [0]
  insertedWindowDims := [1]
  scatterDimsToOperandDims := [1]
  indexVectorDim := 1
  wf := scatter_S32x8192_S8191x1_S32x8191_0_1_1_1_wf

abbrev win0_0 : Pipeline.Window sig grid0 :=
  Pipeline.Window.ofSpec (Memref.whole main_v2) S32x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S32x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S32x8192 : Shape := ⟨2, ![32, 8192]⟩
abbrev S8192x8192 : Shape := ⟨2, ![8192, 8192]⟩
abbrev S8192 : Shape := ⟨1, ![8192]⟩
abbrev S_ : Shape := ⟨0, ![]⟩
abbrev S1 : Shape := ⟨1, ![1]⟩
abbrev S32 : Shape := ⟨1, ![32]⟩
abbrev S8192x1 : Shape := ⟨2, ![8192, 1]⟩
abbrev S32x8191 : Shape := ⟨2, ![32, 8191]⟩
abbrev S8191 : Shape := ⟨1, ![8191]⟩
abbrev S8191x1 : Shape := ⟨2, ![8191, 1]⟩

abbrev nBuf : Space → Nat
  | .hbm => 44
  | .vmem => 0
  | .smem => 0
  | _ => 0

abbrev bufTy : (tb : Table) → Fin (tcTables nBuf tb) → BufTy
  | .hbm, ⟨0, _⟩ => ⟨S32x8192, .f32⟩
  | .hbm, ⟨1, _⟩ => ⟨S8192x8192, .f32⟩
  | .hbm, ⟨2, _⟩ => ⟨S8192, .i32⟩
  | .hbm, ⟨3, _⟩ => ⟨S_, .i32⟩
  | .hbm, ⟨4, _⟩ => ⟨S1, .i32⟩
  | .hbm, ⟨5, _⟩ => ⟨S_, .f32⟩
  | .hbm, ⟨6, _⟩ => ⟨S32, .f32⟩
  | .hbm, ⟨7, _⟩ => ⟨S32x8192, .f32⟩
  | .hbm, ⟨8, _⟩ => ⟨S32x8192, .f32⟩
  | .hbm, ⟨9, _⟩ => ⟨S_, .f32⟩
  | .hbm, ⟨10, _⟩ => ⟨S32x8192, .f32⟩
  | .hbm, ⟨11, _⟩ => ⟨S32x8192, .i1⟩
  | .hbm, ⟨12, _⟩ => ⟨S_, .i32⟩
  | .hbm, ⟨13, _⟩ => ⟨S8192, .i32⟩
  | .hbm, ⟨14, _⟩ => ⟨S8192, .i1⟩
  | .hbm, ⟨15, _⟩ => ⟨S_, .i32⟩
  | .hbm, ⟨16, _⟩ => ⟨S8192, .i32⟩
  | .hbm, ⟨17, _⟩ => ⟨S8192, .i32⟩
  | .hbm, ⟨18, _⟩ => ⟨S8192, .i32⟩
  | .hbm, ⟨19, _⟩ => ⟨S8192x1, .i32⟩
  | .hbm, ⟨20, _⟩ => ⟨S32x8192, .i1⟩
  | .hbm, ⟨21, _⟩ => ⟨S_, .i32⟩
  | .hbm, ⟨22, _⟩ => ⟨S1, .i32⟩
  | .hbm, ⟨23, _⟩ => ⟨S_, .i1⟩
  | .hbm, ⟨24, _⟩ => ⟨S32, .i1⟩
  | .hbm, ⟨25, _⟩ => ⟨S32x8192, .i1⟩
  | .hbm, ⟨26, _⟩ => ⟨S32x8191, .i1⟩
  | .hbm, ⟨27, _⟩ => ⟨S32x8191, .f32⟩
  | .hbm, ⟨28, _⟩ => ⟨S_, .f32⟩
  | .hbm, ⟨29, _⟩ => ⟨S32x8192, .f32⟩
  | .hbm, ⟨30, _⟩ => ⟨S8191, .i32⟩
  | .hbm, ⟨31, _⟩ => ⟨S_, .i32⟩
  | .hbm, ⟨32, _⟩ => ⟨S8191, .i32⟩
  | .hbm, ⟨33, _⟩ => ⟨S8191, .i1⟩
  | .hbm, ⟨34, _⟩ => ⟨S_, .i32⟩
  | .hbm, ⟨35, _⟩ => ⟨S8191, .i32⟩
  | .hbm, ⟨36, _⟩ => ⟨S8191, .i32⟩
  | .hbm, ⟨37, _⟩ => ⟨S8191, .i32⟩
  | .hbm, ⟨38, _⟩ => ⟨S8191x1, .i32⟩
  | .hbm, ⟨39, _⟩ => ⟨S32x8192, .f32⟩
  | .hbm, ⟨40, _⟩ => ⟨S_, .f32⟩
  | .hbm, ⟨41, _⟩ => ⟨S32x8192, .f32⟩
  | .hbm, ⟨42, _⟩ => ⟨S32x8192, .i1⟩
  | .hbm, ⟨43, _⟩ => ⟨S32x8192, .i1⟩
  | _, _ => ⟨S32x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_c_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_c_6 : Ref sig .tc := ⟨.hbm, 31, rfl⟩
abbrev main_v20 : Ref sig .tc := ⟨.hbm, 32, rfl⟩
abbrev main_v21 : Ref sig .tc := ⟨.hbm, 33, rfl⟩
abbrev main_c_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S_S32 : S_.BroadcastsInDim S32 (![] : Fin 0 → Fin S32.rank)
  bcast_S_S32x8192 : S_.BroadcastsInDim S32x8192 (![] : Fin 0 → Fin S32x8192.rank)
  bcast_S_S8192 : S_.BroadcastsInDim S8192 (![] : Fin 0 → Fin S8192.rank)
  bcast_S8192_S8192x1_0 : S8192.BroadcastsInDim S8192x1 (![0] : Fin 1 → Fin S8192x1.rank)
  slices_S32x8192_S32x8191_0_1 : S32x8192.Slices ![0, 1] S32x8191
  slices_S8192_S8191_1 : S8192.Slices ![1] S8191
  bcast_S_S8191 : S_.BroadcastsInDim S8191 (![] : Fin 0 → Fin S8191.rank)
  bcast_S8191_S8191x1_0 : S8191.BroadcastsInDim S8191x1 (![0] : Fin 1 → Fin S8191x1.rank)
  scatter_S32x8192_S1_S32_0_1_1_0_wf : ScatterDims.WF S32x8192 S1 S32 [0] [1] [1] 0
  dot_S32x8192_S8192x8192_S32x8192_1_0_0_1_n_n_wf : DotDims.WF S32x8192 S8192x8192 S32x8192 [1] [0] [0] [1] [] []
  gather_S32x8192_S8192x1_S32x8192_0_1_n_n_1_1_321_wf : GatherDims.WF S32x8192 S8192x1 S32x8192 [0] [1] [] [1] [] 1 ![32, 1]
  scatter_S32x8192_S8191x1_S32x8191_0_1_1_1_wf : ScatterDims.WF S32x8192 S8191x1 S32x8191 [0] [1] [1] 1

variable [Facts₀]

def scatter_S32x8192_S1_S32_0_1_1_0 : ScatterDims S32x8192 S1 S32 where
  updateWindowDims := [0]
  insertedWindowDims := [1]
  scatterDimsToOperandDims := [1]
  indexVectorDim := 0
  wf := scatter_S32x8192_S1_S32_0_1_1_0_wf
def dot_S32x8192_S8192x8192_S32x8192_1_0_0_1_n_n : DotDims S32x8192 S8192x8192 S32x8192 where
  lhsContracting := [1]
  rhsContracting := [0]
  lhsNonContracting := [0]
  rhsNonContracting := [1]
  lhsBatch := []
  rhsBatch := []
  wf := dot_S32x8192_S8192x8192_S32x8192_1_0_0_1_n_n_wf
def gather_S32x8192_S8192x1_S32x8192_0_1_n_n_1_1_321 : GatherDims S32x8192 S8192x1 S32x8192 where
  offsetDims := [0]
  collapsedSliceDims := [1]
  operandBatchingDims := []
  startIndicesBatchingDims := []
  startIndexMap := [1]
  indexVectorDim := 1
  sliceSizes := ![32, 1]
  wf := gather_S32x8192_S8192x1_S32x8192_0_1_n_n_1_1_321_wf
def scatter_S32x8192_S8191x1_S32x8191_0_1_1_1 : ScatterDims S32x8192 S8191x1 S32x8191 where
  updateWindowDims := [0]
  insertedWindowDims := [1]
  scatterDimsToOperandDims := [1]
  indexVectorDim := 1
  wf := scatter_S32x8192_S8191x1_S32x8191_0_1_1_1_wf

class Facts : Prop extends Facts₀ where

variable [Facts]
-- ==== Proof.TileSums.lean ====
/-
  Sums taken run by run.  A sum over the first `(k+1)·n` naturals is the sum over the first `k·n` of them plus the
  sum over the next run of `n`; so an accumulator that starts at the empty sum and adds one run of `n` terms per
  round holds, after `k` rounds, the sum over the first `k·n` naturals.  Only commutativity and associativity of
  the addition are used, so the statements hold in any commutative additive monoid — in particular on the
  extended reals, where no finiteness of the terms is needed.
-/
import Mathlib.Algebra.BigOperators.Fin

namespace Cert.TileSums

open Finset

/-- The sum of the first `k·n` terms plus the `k`-th run of `n` terms is the sum of the first `(k+1)·n` terms. -/
theorem sum_range_add_run {M : Type*} [AddCommMonoid M] (f : ℕ → M) (n k : ℕ) :
    ∑ j ∈ range (k * n), f j + ∑ i ∈ range n, f (k * n + i) = ∑ j ∈ range ((k + 1) * n), f j := by
  rw [add_one_mul, sum_range_add]

end Cert.TileSums
-- ==== Proof.AncSpec.lean ====
/-
  The ancestor sum as one function of the two argument arrays, and how a round-by-round accumulation reaches it.

  For `X : [32, 8192]` (the drop indicators, one row per batch entry) and `M : [8192, 8192]` (the ancestor mask),
  entry `(p, q)` of the ancestor sum is `∑ⱼ X(p, j) · M(j, q)` over all 8192 nodes `j`, on the extended reals.
  A computation that takes the nodes in runs of 1024 — an accumulator that starts at the empty sum and, in round
  `k`, adds `∑ᵢ X(p, 1024·k + i) · M(1024·k + i, q)` — holds after round `k` the sum over the first `1024·(k+1)`
  nodes, hence after the eighth round the whole sum.  Addition on the extended reals is commutative and
  associative, which is all the regrouping needs: no entry has to be finite.

  The products are carried as a function `term` of a natural-number node and a natural-number column, zero outside
  the arrays, so that partial sums are sums over `Finset.range`.
-/
import Idealize.ShloMosaic.Lib.ValueIdx
import proofs.«141109_j3702261809408_1_alg».proof.Proof.TileSums

noncomputable section

namespace Cert.AncSpec

open Finset Idealize.ShloMosaic Idealize.ShloMosaic.ValueIdx

/-- The drop indicators: one row of 8192 nodes per batch entry. -/
abbrev SX : Shape := ⟨2, ![32, 8192]⟩
/-- The ancestor mask: row `j`, column `q` says whether node `j` is an ancestor of node `q`. -/
abbrev SM : Shape := ⟨2, ![8192, 8192]⟩

/-- The product `X(p, j) · M(j, col)` for a node `j` and a column `col` given as natural numbers; zero when
    either is outside the arrays. -/
def term (X : SX.Idx → EReal) (M : SM.Idx → EReal) (p : Fin 32) (col j : ℕ) : EReal :=
  if h : j < 8192 ∧ col < 8192 then X (ix2 p ⟨j, h.1⟩) * M (ix2 ⟨j, h.1⟩ ⟨col, h.2⟩) else 0

/-- Entry `(p, q)` of the ancestor sum: `∑ⱼ X(p, j) · M(j, q)`. -/
def ancAt (X : SX.Idx → EReal) (M : SM.Idx → EReal) (p : Fin 32) (q : Fin 8192) : EReal :=
  ∑ j : Fin 8192, X (ix2 p j) * M (ix2 j q)

/-- The ancestor sum as an array. -/
def anc (X : SX.Idx → EReal) (M : SM.Idx → EReal) : SX.Idx → EReal := fun i => ancAt X M (i 0) (i 1)

theorem anc_ix2 (X : SX.Idx → EReal) (M : SM.Idx → EReal) (p : Fin 32) (q : Fin 8192) :
    anc X M (ix2 p q) = ancAt X M p q := rfl

/-- Inside the arrays `term` is the product. -/
theorem term_eq (X : SX.Idx → EReal) (M : SM.Idx → EReal) (p : Fin 32) (col j : ℕ) (hj : j < 8192) (hc : col < 8192) :
    term X M p col j = X (ix2 p ⟨j, hj⟩) * M (ix2 ⟨j, hj⟩ ⟨col, hc⟩) := by
  unfold term
  rw [dif_pos ⟨hj, hc⟩]

/-- The whole sum is the sum of `term` over the first 8192 naturals. -/
theorem ancAt_eq_range (X : SX.Idx → EReal) (M : SM.Idx → EReal) (p : Fin 32) (q : Fin 8192) :
    ancAt X M p q = ∑ j ∈ range 8192, term X M p q.val j := by
  unfold ancAt
  rw [Finset.sum_range]
  exact Finset.sum_congr rfl fun j _ => (term_eq X M p q.val j.val j.isLt q.isLt).symm

/-- Before the first round the accumulator is the empty sum. -/
theorem start (X : SX.Idx → EReal) (M : SM.Idx → EReal) (p : Fin 32) (col : ℕ) :
    (0 : EReal) = ∑ j ∈ range (0 * 1024), term X M p col j := by
  rw [Nat.zero_mul, Finset.range_zero, Finset.sum_empty]

/-- One round: an accumulator holding the sum over the first `1024·k` nodes, plus the products of the `k`-th run
    of 1024 nodes, is the sum over the first `1024·(k+1)` nodes. -/
theorem round (X : SX.Idx → EReal) (M : SM.Idx → EReal) (p : Fin 32) (col k : ℕ) (acc : EReal)
    (x w : Fin 1024 → EReal)
    (hacc : acc = ∑ j ∈ range (k * 1024), term X M p col j)
    (hxw : ∀ i : Fin 1024, x i * w i = term X M p col (k * 1024 + i.val)) :
    acc + ∑ i : Fin 1024, x i * w i = ∑ j ∈ range ((k + 1) * 1024), term X M p col j := by
  rw [hacc, ← Cert.TileSums.sum_range_add_run (term X M p col) 1024 k]
  congr 1
  rw [Finset.sum_range]
  exact Finset.sum_congr rfl fun i _ => hxw i

end Cert.AncSpec

end
-- ==== Proof.LibPlainDot.lean ====
/-
  A plain matrix product read at an entry. For the dimension numbers of an [M, K] by [K, N] product (no batch axis,
  the left operand contracted on its last axis and the right on its first) the entry (p, q) of the product is
  ∑ₖ l(p, k) · r(k, q) over k : Fin K — for a tpu.matmul into the zero accumulator and for the host's dot_general alike,
  at the ideal values. General in the three extents and in the operands' formats; a printed record of these dimension
  numbers is DotDims.plain M K N up to the proof it carries, so it is passed with the equation (by rfl).
-/
import Idealize.ShloMosaic.PureOps.Ideal.Laws
import Idealize.ShloMosaic.Lib.ValueIdx

namespace Idealize.ShloMosaic.ValueIdx

/-- The left operand's row is the output's row, whatever the contraction index. -/
theorem plain_lhs_row {M K N : ℕ} (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column, whatever the contraction index. -/
theorem plain_rhs_col {M K N : ℕ} (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The left operand's index at output (p, q) and contraction coordinate k is (p, k). -/
theorem plain_lhsIdx {M K N : ℕ} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => exact plain_lhs_row (ix2 p q) _
  | ⟨1, _⟩ => exact ((DotDims.plain M K N).lhsIdx_val_of_single (cl := (1 : Fin 2)) rfl (ix2 p q) _).trans hk

/-- The right operand's index at output (p, q) and contraction coordinate k is (k, q). -/
theorem plain_rhsIdx {M K N : ℕ} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single (cr := (0 : Fin 2)) rfl (ix2 p q) _).trans hk
  | ⟨1, _⟩ => exact plain_rhs_col (ix2 p q) _

/-- The product's sum over the contraction index, re-indexed by the contracted coordinate. -/
theorem sum_plain {M K N : ℕ} (l : (⟨2, ![M, K]⟩ : Shape).Idx → EReal) (r : (⟨2, ![K, N]⟩ : Shape).Idx → EReal)
    (p : Fin M) (q : Fin N) :
    ∑ k : (DotDims.plain M K N).contr.Idx, l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  exact Finset.sum_congr rfl fun k _ => by rw [plain_lhsIdx, plain_rhsIdx]

/-- A tpu.matmul of these dimension numbers into the zero accumulator, at entry (p, q). -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  exact (Ideal.matmul_constant_zero_apply _ prec lhs rhs (ix2 p q)).trans (sum_plain lhs rhs p q)

/-- The host's dot_general of these dimension numbers, at entry (p, q). -/
theorem dotGeneral_plain_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  exact (Ideal.dotGeneral_apply _ prec sched lhs rhs (ix2 p q)).trans (sum_plain lhs rhs p q)

end Idealize.ShloMosaic.ValueIdx
-- ==== Proof.Payload.lean ====
/-
  What one round of the kernel body computes, read at an entry, on the extended reals.

  The body narrows a `[32, 1024]` block of the drop indicators and a `[1024, 2048]` block of the ancestor mask to
  bf16 (the identity on extended reals), multiplies them on the matrix unit into a zero accumulator, and adds the
  product to what the scratch accumulator held: entry `(p, q)` of the new accumulator is
  `acc(p, q) + ∑ᵢ x(p, i) · w(i, q)` over the block's 1024 nodes.  At the first round of a column block the scratch
  accumulator is first set to zero.
-/
import proofs.«141109_j3702261809408_1_alg».proof.Proof.Gen.KernelIdeal.Skeleton
import proofs.«141109_j3702261809408_1_alg».proof.Proof.LibPlainDot
import Idealize.ShloMosaic.Lib.Pipeline.Value

noncomputable section

namespace Cert.KernelIdeal.Payload

open Idealize.ShloMosaic Idealize.ShloMosaic.ValueIdx Cert.KernelIdeal Cert.KernelIdeal.Gen

/-- The block the first round stores before accumulating is zero everywhere. -/
theorem pay1_apply (j : S32x2048.Idx) : k0_pay1 (F := Ideal) j = 0 := by
  unfold k0_pay1
  rw [shapeCast_self]
  exact Ideal.ofBits_zero_f32

/-- One round at entry `(p, q)`: the old accumulator plus the block product's entry. -/
theorem pay2_apply (x : Vec Ideal S32x1024 .f32) (w : Vec Ideal S1024x2048 .f32) (acc : Vec Ideal S32x2048 .f32)
    (p : Fin 32) (q : Fin 2048) :
    k0_pay2 (F := Ideal) x w acc (ix2 p q) = acc (ix2 p q) + ∑ i : Fin 1024, x (ix2 p i) * w (ix2 i q) := by
  unfold k0_pay2
  simp only [shapeCast_self]
  show acc (ix2 p q) + _ = _
  congr 1
  refine (matmul_plain_zero_apply _ rfl none _ _ p q).trans ?_
  rfl

end Cert.KernelIdeal.Payload

end
-- ==== Proof.Pieces.lean ====
/-
  What each case of the kernel body leaves behind, as values.

  The body is run in three cases of its two conditionals on the reduction coordinate `k` of a grid point:
  `k = 0` (the scratch accumulator is zeroed, then one round is added), `0 < k < 7` (one round is added to what the
  previous point left), and `k = 7` (one more round, and the accumulator is copied into the output block).
  Each store covers its whole buffer, so what a buffer holds afterwards is the last store's value, and a load of the
  scratch after a covering store reads that store's value.
-/
import proofs.«141109_j3702261809408_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- A middle round (`0 < k < 7`): the scratch ends at one round added to what it held. -/
theorem scratch_B (c : Dev nD) (i : grid0.Coords) (a2 : Memref sig .tc .vmem S32x1024 .f32) (h2 : a2.IsWhole)
    (a3 : Memref sig .tc .vmem S1024x2048 .f32) (h3 : a3.IsWhole) (a4 : Memref sig .tc .vmem S32x2048 .f32) (h4 : a4.IsWhole)
    (a5 : Memref sig .tc .vmem S32x2048 .f32) (h5 : a5.IsWhole) (hc0 : ¬cond0_0 i) (hc1 : ¬cond0_1 i)
    (x0 : Vec F S32x1024 .f32) (x1 : Vec F S1024x2048 .f32) (xs0 : Vec F S32x2048 .f32) :
    sout0_B_0 c i a2 h2 a3 h3 a4 h4 a5 h5 hc0 hc1 x0 x1 xs0 = k0_pay2 x0 x1 xs0 := by
  unfold sout0_B_0
  rw [View.read_writes_eq_canon _ _ _ (scover0_B_0 c i a2 h2 a3 h3 a4 h4 a5 h5 hc0 hc1 x0 x1 xs0)]
  unfold kernelRun0_B
  dsimp only
  rw [View.canon_unit_zero hz]
  simp only [View.readAt_eq_ld, h2.read_unread, h3.read_unread, h5.read_unread, View.ld_unit_zero (S := S32x1024) hz,
    View.ld_unit_zero (S := S1024x2048) hz, View.ld_unit_zero (S := S32x2048) hz]

/-- The first round (`k = 0`): the scratch is zeroed, read back, and ends at one round added to zero. -/
theorem scratch_A (c : Dev nD) (i : grid0.Coords) (a2 : Memref sig .tc .vmem S32x1024 .f32) (h2 : a2.IsWhole)
    (a3 : Memref sig .tc .vmem S1024x2048 .f32) (h3 : a3.IsWhole) (a4 : Memref sig .tc .vmem S32x2048 .f32) (h4 : a4.IsWhole)
    (a5 : Memref sig .tc .vmem S32x2048 .f32) (h5 : a5.IsWhole) (hc0 : cond0_0 i) (hc1 : ¬cond0_1 i)
    (x0 : Vec F S32x1024 .f32) (x1 : Vec F S1024x2048 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S32x2048) hz, View.readCov_unit_zero (S := S32x2048) _ hz]
  simp only [View.readAt_eq_ld, h2.read_unread, h3.read_unread, View.ld_unit_zero (S := S32x1024) hz,
    View.ld_unit_zero (S := S1024x2048) hz]

/-- The last round (`k = 7`): the scratch ends at one round added to what it held, -/
theorem scratch_C (c : Dev nD) (i : grid0.Coords) (a2 : Memref sig .tc .vmem S32x1024 .f32) (h2 : a2.IsWhole)
    (a3 : Memref sig .tc .vmem S1024x2048 .f32) (h3 : a3.IsWhole) (a4 : Memref sig .tc .vmem S32x2048 .f32) (h4 : a4.IsWhole)
    (a5 : Memref sig .tc .vmem S32x2048 .f32) (h5 : a5.IsWhole) (hc0 : ¬cond0_0 i) (hc1 : cond0_1 i)
    (x0 : Vec F S32x1024 .f32) (x1 : Vec F S1024x2048 .f32) (xs0 : Vec F S32x2048 .f32) :
    sout0_C_0 c i a2 h2 a3 h3 a4 h4 a5 h5 hc0 hc1 x0 x1 xs0 = k0_pay2 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero (S := S32x2048) hz]
  simp only [View.readAt_eq_ld, h2.read_unread, h3.read_unread, h5.read_unread, View.ld_unit_zero (S := S32x1024) hz,
    View.ld_unit_zero (S := S1024x2048) hz, View.ld_unit_zero (S := S32x2048) hz]

/-- and the output block is a copy of it. -/
theorem out_C (c : Dev nD) (i : grid0.Coords) (a2 : Memref sig .tc .vmem S32x1024 .f32) (h2 : a2.IsWhole)
    (a3 : Memref sig .tc .vmem S1024x2048 .f32) (h3 : a3.IsWhole) (a4 : Memref sig .tc .vmem S32x2048 .f32) (h4 : a4.IsWhole)
    (a5 : Memref sig .tc .vmem S32x2048 .f32) (h5 : a5.IsWhole) (hc0 : ¬cond0_0 i) (hc1 : cond0_1 i)
    (x0 : Vec F S32x1024 .f32) (x1 : Vec F S1024x2048 .f32) (xs0 : Vec F S32x2048 .f32) :
    out0_C_2 c i a2 h2 a3 h3 a4 h4 a5 h5 hc0 hc1 x0 x1 xs0 = k0_pay2 x0 x1 xs0 := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero (S := S32x2048) hz, View.readCov_unit_zero (S := S32x2048) _ hz]
  simp only [View.readAt_eq_ld, h2.read_unread, h3.read_unread, h5.read_unread, View.ld_unit_zero (S := S32x1024) hz,
    View.ld_unit_zero (S := S1024x2048) hz, View.ld_unit_zero (S := S32x2048) hz]

end Cert.KernelIdeal.Pieces

end
-- ==== Proof.Blocks.lean ====
/-
  Which entries of the arrays the windows' blocks hold at a grid point.

  The grid has 4 × 8 points; point `t` has column-block coordinate `t / 8` and reduction coordinate `t % 8`.
  At point `t` the first window holds columns `1024·(t % 8) …` of the drop indicators (all 32 rows), the second
  holds rows `1024·(t % 8) …` and columns `2048·(t / 8) …` of the ancestor mask, and the output window is the
  block of columns `2048·(t / 8) …` of the result.  An element of a block sits at block index × block size plus
  its coordinate inside the block, on each axis.
-/
import proofs.«141109_j3702261809408_1_alg».proof.Proof.Gen.KernelIdeal.Frame
import Idealize.ShloMosaic.Lib.Pipeline.Value
import Idealize.ShloMosaic.Lib.ValueIdx

noncomputable section

namespace Cert.KernelIdeal.Blocks

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The drop indicators' block index at point `t`: row block 0, column block `t % 8`. -/
theorem idx_drop : ∀ t : Fin cfg0.N, win0_0.index t 0 = 0 ∧ win0_0.index t 1 = t.val % 8 :=
  (by decide +kernel : ∀ t : Fin grid0.N, win0_0.index t 0 = 0 ∧ win0_0.index t 1 = t.val % 8)

/-- The ancestor mask's block index at point `t`: row block `t % 8`, column block `t / 8`. -/
theorem idx_mask : ∀ t : Fin cfg0.N, win0_1.index t 0 = t.val % 8 ∧ win0_1.index t 1 = t.val / 8 :=
  (by decide +kernel : ∀ t : Fin grid0.N, win0_1.index t 0 = t.val % 8 ∧ win0_1.index t 1 = t.val / 8)

/-- The result's block index at point `t`: row block 0, column block `t / 8`. -/
theorem idx_out : ∀ t : Fin cfg0.N, win0_2.index t 0 = 0 ∧ win0_2.index t 1 = t.val / 8 :=
  (by decide +kernel : ∀ t : Fin grid0.N, win0_2.index t 0 = 0 ∧ win0_2.index t 1 = t.val / 8)

/-- Entry `(p, i)` of the drop indicators' block at point `t` is entry `(p, 1024·(t % 8) + i)` of the array. -/
theorem drop_block (c : Dev nD) (t : Fin cfg0.N) (p : Fin 32) (i : Fin 1024) (j : S32x8192.Idx)
    (h0 : (j 0).val = p.val) (h1 : (j 1).val = t.val % 8 * 1024 + i.val) :
    (iblk m c 0 t : Vec F S32x1024 .f32) (ix2 p i) = V m c main_v2 j := by
  unfold iblk
  rw [View.read_apply]
  show V m c main_v2 _ = V m c main_v2 j
  congr 1
  funext a
  apply Fin.ext
  match a with
  | ⟨0, _⟩ => show win0_0.index t 0 * 32 + 1 * p.val = (j 0).val; rw [(idx_drop t).1]; omega
  | ⟨1, _⟩ => show win0_0.index t 1 * 1024 + 1 * i.val = (j 1).val; rw [(idx_drop t).2]; omega

/-- Entry `(i, q)` of the ancestor mask's block at point `t` is entry `(1024·(t % 8) + i, 2048·(t / 8) + q)` of
    the array. -/
theorem mask_block (c : Dev nD) (t : Fin cfg0.N) (i : Fin 1024) (q : Fin 2048) (j : S8192x8192.Idx)
    (h0 : (j 0).val = t.val % 8 * 1024 + i.val) (h1 : (j 1).val = t.val / 8 * 2048 + q.val) :
    (iblk m c 1 t : Vec F S1024x2048 .f32) (ix2 i q) = V m c main_arg1 j := by
  unfold iblk
  rw [View.read_apply]
  show V m c main_arg1 _ = V m c main_arg1 j
  congr 1
  funext a
  apply Fin.ext
  match a with
  | ⟨0, _⟩ => show win0_1.index t 0 * 1024 + 1 * i.val = (j 0).val; rw [(idx_mask t).1]; omega
  | ⟨1, _⟩ => show win0_1.index t 1 * 2048 + 1 * q.val = (j 1).val; rw [(idx_mask t).2]; omega

end Cert.KernelIdeal.Blocks

end
-- ==== Proof.Running.lean ====
/-
  The scratch accumulator after each grid point is a partial ancestor sum.

  Write `X` for the drop indicators and `M` for the ancestor mask as the kernel finds them.  After the body at
  grid point `n` (column block `n / 8`, reduction step `n % 8`), entry `(p, q)` of the scratch accumulator is
  `∑ X(p, j) · M(j, 2048·(n / 8) + q)` over the first `1024·(n % 8 + 1)` nodes `j`: at step 0 the accumulator is
  zeroed and the first run of 1024 nodes added; at every later step the next run is added to what the point before
  left, which belongs to the same column block.  By induction on the point.  At step 7 the sum is over all 8192
  nodes, and the output block receives a copy.
-/
import proofs.«141109_j3702261809408_1_alg».proof.Proof.AncSpec
import proofs.«141109_j3702261809408_1_alg».proof.Proof.Payload
import proofs.«141109_j3702261809408_1_alg».proof.Proof.Pieces
import proofs.«141109_j3702261809408_1_alg».proof.Proof.Blocks

noncomputable section

namespace Cert.KernelIdeal.Running

open Idealize.ShloMosaic Idealize.ShloMosaic.TcCoe Idealize.SL.Sem Idealize.ShloMosaic.ValueIdx
open Cert.KernelIdeal Cert.KernelIdeal.Gen Cert.AncSpec

variable (m : (ℓ : Loc nD τ sig) → Buf (Elt Ideal) ℓ)

/-- The drop indicators as the kernel finds them (after the root's column has been cleared on the host). -/
abbrev X (c : Dev nD) : SX.Idx → EReal := V m c main_v2
/-- The ancestor mask as the kernel finds it. -/
abbrev M (c : Dev nD) : SM.Idx → EReal := V m c main_arg1

/-- One round at point `t`: if the accumulator holds the partial sum over the first `1024·(t % 8)` nodes, the
    body's new accumulator holds the partial sum over the first `1024·(t % 8 + 1)` nodes. -/
theorem round_at (c : Dev nD) (t : Fin cfg0.N) (acc : Vec Ideal S32x2048 .f32) (p : Fin 32) (q : Fin 2048)
    (hacc : acc (ix2 p q) = ∑ j ∈ Finset.range (t.val % 8 * 1024), term (X m c) (M m c) p (t.val / 8 * 2048 + q.val) j) :
    k0_pay2 (F := Ideal) (iblk m c 0 t) (iblk m c 1 t) acc (ix2 p q)
      = ∑ j ∈ Finset.range ((t.val % 8 + 1) * 1024), term (X m c) (M m c) p (t.val / 8 * 2048 + q.val) j := by
  have hN : t.val < 32 := lt_of_lt_of_eq t.isLt (show cfg0.N = 32 from N_0)
  refine (Payload.pay2_apply (iblk m c 0 t) (iblk m c 1 t) acc p q).trans ?_
  refine round (X m c) (M m c) p (t.val / 8 * 2048 + q.val) (t.val % 8) (acc (ix2 p q))
    (fun i => (iblk m c 0 t : Vec Ideal S32x1024 .f32) (ix2 p i)) (fun i => (iblk m c 1 t : Vec Ideal S1024x2048 .f32) (ix2 i q))
    hacc (fun i => ?_)
  have hi : i.val < 1024 := i.isLt
  have hq : q.val < 2048 := q.isLt
  have hj : t.val % 8 * 1024 + i.val < 8192 := by omega
  have hc : t.val / 8 * 2048 + q.val < 8192 := by omega
  rw [term_eq (X m c) (M m c) p _ _ hj hc]
  have e0 : (iblk m c 0 t : Vec Ideal S32x1024 .f32) (ix2 p i) = X m c (ix2 p ⟨t.val % 8 * 1024 + i.val, hj⟩) :=
    Blocks.drop_block m c t p i _ rfl rfl
  have e1 : (iblk m c 1 t : Vec Ideal S1024x2048 .f32) (ix2 i q)
      = M m c (ix2 ⟨t.val % 8 * 1024 + i.val, hj⟩ ⟨t.val / 8 * 2048 + q.val, hc⟩) :=
    Blocks.mask_block m c t i q _ rfl rfl
  exact congrArg₂ (fun a b : EReal => a * b) e0 e1

/-- THE INVARIANT: the scratch accumulator after point `n` is the partial ancestor sum of its column block over the
    first `1024·(n % 8 + 1)` nodes. -/
theorem scratch_eq (c : Dev nD) : ∀ (n : ℕ) (h : n < cfg0.N) (p : Fin 32) (q : Fin 2048),
    (outsAt0 m c n h).2 (ix2 p q)
      = ∑ j ∈ Finset.range ((n % 8 + 1) * 1024), term (X m c) (M m c) p (n / 8 * 2048 + q.val) j := by
  intro n
  induction n with
  | zero =>
    intro h p q
    rw [outsAt0_A m c ⟨0, h⟩ rfl (by dsimp only; omega)]
    dsimp only
    rw [Pieces.scratch_A]
    refine round_at m c ⟨0, h⟩ _ p q ?_
    rw [Payload.pay1_apply]
    exact start (X m c) (M m c) p _
  | succ n ih =>
    intro h p q
    have hN : n + 1 < 32 := lt_of_lt_of_eq h (show cfg0.N = 32 from N_0)
    by_cases h0 : (n + 1) % 8 = 0
    · rw [outsAt0_A m c ⟨n + 1, h⟩ h0 (by dsimp only; omega)]
      dsimp only
      rw [Pieces.scratch_A]
      refine round_at m c ⟨n + 1, h⟩ _ p q ?_
      rw [Payload.pay1_apply]
      show (0 : EReal) = ∑ j ∈ Finset.range ((n + 1) % 8 * 1024), _
      rw [h0]
      exact start (X m c) (M m c) p _
    · have hprev : (outsAt0 m c n (Nat.lt_of_succ_lt h)).2 (ix2 p q)
          = ∑ j ∈ Finset.range ((n + 1) % 8 * 1024), term (X m c) (M m c) p ((n + 1) / 8 * 2048 + q.val) j := by
        rw [ih (Nat.lt_of_succ_lt h) p q]
        have e1 : n % 8 + 1 = (n + 1) % 8 := by omega
        have e2 : n / 8 = (n + 1) / 8 := by omega
        rw [e1, e2]
      by_cases h1 : (n + 1) % 8 = 7
      · rw [outsAt0_C m c ⟨n + 1, h⟩ h0 h1]
        dsimp only
        rw [Pieces.scratch_C]
        exact round_at m c ⟨n + 1, h⟩ _ p q hprev
      · rw [outsAt0_B m c ⟨n + 1, h⟩ h0 h1]
        dsimp only
        rw [Pieces.scratch_B]
        exact round_at m c ⟨n + 1, h⟩ _ p q hprev

end Cert.KernelIdeal.Running

end
-- ==== Proof.KernelValue.lean ====
/-
  The kernel's result array is the ancestor sum.

  The output window is written back at the points with reduction step 7 only, one per column block.  There the
  output block is a copy of the scratch accumulator, which holds the partial sum over the first `1024·8 = 8192`
  nodes — the whole ancestor sum of the block's columns.  The four blocks written back tile the `[32, 8192]` result
  (block `b` is columns `2048·b …`; column `q` lies in block `q / 2048`, written at point `8·(q / 2048) + 7`), so the
  array ends holding the ancestor sum of the arrays the kernel found.
-/
import proofs.«141109_j3702261809408_1_alg».proof.Proof.Running
import Idealize.ShloMosaic.Lib.Pipeline.Value

noncomputable section

namespace Cert.KernelIdeal.Result

open Idealize.ShloMosaic Idealize.ShloMosaic.TcCoe Idealize.SL.Sem Idealize.ShloMosaic.ValueIdx
open Idealize.ShloMosaic.Pipeline (Dat)
open Cert.KernelIdeal Cert.KernelIdeal.Gen Cert.AncSpec Cert.KernelIdeal.Running

variable (m : (ℓ : Loc nD τ sig) → Buf (Elt Ideal) ℓ)

/-- The result array's contents: the ancestor sum of the drop indicators and the ancestor mask as the kernel finds
    them. -/
abbrev result (c : Dev nD) : Buf (Elt Ideal) ((c : Thread nD τ).loc main_v3) := anc (X m c) (M m c)

/-- At a point of the last reduction step the output block is the scratch accumulator. -/
theorem out_eq_scratch (c : Dev nD) (t : Fin cfg0.N) (h7 : t.val % 8 = 7) :
    (outsAt0 m c t.val t.isLt).1 = (outsAt0 m c t.val t.isLt).2 := by
  rw [outsAt0_C m c t (by omega) h7]
  dsimp only
  rw [Pieces.out_C, Pieces.scratch_C]

/-- So its entry `y` is the whole ancestor sum at row `y₀` and column `2048·(t / 8) + y₁`. -/
theorem out_apply (c : Dev nD) (t : Fin cfg0.N) (h7 : t.val % 8 = 7) (y : S32x2048.Idx)
    (hc : t.val / 8 * 2048 + (y 1).val < 8192) :
    (outsAt0 m c t.val t.isLt).1 y = ancAt (X m c) (M m c) (y 0) ⟨t.val / 8 * 2048 + (y 1).val, hc⟩ := by
  obtain ⟨p, q, rfl⟩ : ∃ (p : Fin 32) (q : Fin 2048), y = ix2 p q := ⟨y 0, y 1, eq_ix2 y⟩
  rw [out_eq_scratch m c t h7, scratch_eq m c t.val t.isLt p q, h7, ancAt_eq_range]

/-- The ancestor sum at an index given by its two coordinates. -/
theorem anc_at (A : SX.Idx → EReal) (B : SM.Idx → EReal) (i : SX.Idx) (p : Fin 32) (q : Fin 8192)
    (h0 : (i 0).val = p.val) (h1 : (i 1).val = q.val) : anc A B i = ancAt A B p q := by
  obtain rfl : i = ix2 p q := by
    funext a; apply Fin.ext
    match a with
    | ⟨0, _⟩ => exact h0
    | ⟨1, _⟩ => exact h1
  rfl

/-- What a write-back writes is the block of the ancestor sum at its place. -/
theorem flushed_eq (c : Dev nD) (t : Fin cfg0.N) (hf : (cfg0.win 2).flush t = true) :
    (dats m 0 c).flushed 2 t = ((cfg0.win 2).blk t).view.read (Elt Ideal) (result m c) := by
  have h7 : t.val % 8 = 7 := (flush0_2 t).mp hf
  have hN : t.val < 32 := lt_of_lt_of_eq t.isLt (show cfg0.N = 32 from N_0)
  show (cfg0.win 2).cut (grid0.coords t) ((dats m 0 c).after 2 t) = _
  rw [after0_2]
  funext j
  have hj1 : (j 1).val < 2048 := (j 1).isLt
  have hc : t.val / 8 * 2048 + (j 1).val < 8192 := by omega
  refine (out_apply m c t h7 j hc).trans ?_
  rw [View.read_apply]
  refine (anc_at (X m c) (M m c) (((cfg0.win 2).blk t).view.emb j) (j 0) ⟨t.val / 8 * 2048 + (j 1).val, hc⟩ ?_ ?_).symm
  · show win0_2.index t 0 * 32 + 1 * (j 0).val = (j 0).val
    rw [(Blocks.idx_out t).1]; omega
  · show win0_2.index t 1 * 2048 + 1 * (j 1).val = t.val / 8 * 2048 + (j 1).val
    rw [(Blocks.idx_out t).2]; omega

/-- Every entry of the result lies in the block some write-back writes. -/
theorem cover (i : S32x8192.Idx) : ∃ t : Fin cfg0.N, (cfg0.win 2).flush t = true ∧ i ∈ ((cfg0.win 2).blk t).view.set := by
  have h0 : (i 0).val < 32 := (i 0).isLt
  have h1 : (i 1).val < 8192 := (i 1).isLt
  have hN : cfg0.N = 32 := N_0
  obtain ⟨t, ht⟩ : ∃ t : Fin cfg0.N, t.val = (i 1).val / 2048 * 8 + 7 := ⟨⟨(i 1).val / 2048 * 8 + 7, by rw [hN]; omega⟩, rfl⟩
  refine ⟨t, (flush0_2 t).mpr (by omega), ?_⟩
  show i ∈ ((View.whole main_v3).slice (win0_2.rect t)).set
  rw [View.set_slice_whole, Rect.mem_set_unit]
  intro a
  match a with
  | ⟨0, _⟩ =>
    show win0_2.index t 0 * 32 ≤ (i 0).val ∧ (i 0).val < win0_2.index t 0 * 32 + 32
    rw [(Blocks.idx_out t).1]; omega
  | ⟨1, _⟩ =>
    show win0_2.index t 1 * 2048 ≤ (i 1).val ∧ (i 1).val < win0_2.index t 1 * 2048 + 2048
    rw [(Blocks.idx_out t).2]; omega

/-- The result array after the run is the ancestor sum. -/
theorem final (c : Dev nD) : (dats m 0 c).arrAt 2 cfg0.N = result m c :=
  (dats m 0 c).arrAt_eq_of_cover 2 (result m c) (flushed_eq m c) cover

end Cert.KernelIdeal.Result

end
-- ==== Proof.Cut.lean ====
/-
  The host computation around the ancestor sum, as two functions shared by both programs.

  `clearRoot` clears the root's column of the drop indicators (the root is never cut).  `boundary` takes the ancestor
  sum and the parent table and marks the leaves of the random cut: a node survives when its parent's ancestor sum is
  zero (the root always survives); the surviving children of every node are counted by an accumulating scatter over
  the parent table; a surviving node with no surviving child is on the boundary.  Both programs apply exactly these
  host operations — the only difference between them is how the ancestor sum is computed —, so the operations are
  named once here and never opened.
-/
import proofs.«141109_j3702261809408_1_alg».proof.Proof.Gen.ReferenceIdeal

noncomputable section

namespace Cert.Cut

open Idealize.ShloMosaic Cert.ReferenceIdeal Cert.ReferenceIdeal.Gen

variable {F : FTy → Type} [FloatOps F]

/-- The drop indicators with the root's column set to zero. -/
def clearRoot (drop : (⟨S32x8192, .f32⟩ : BufTy).Contents (Elt F)) : (⟨S32x8192, .f32⟩ : BufTy).Contents (Elt F) :=
  Host.scatter scatter_S32x8192_S1_S32_0_1_1_0 (fun _ b => b) drop (broadcastInDim S1 ![] bcast_S_S1 (constantI S_ 32 0#32))
    (broadcastInDim S32 ![] bcast_S_S32 (constant (F := F) S_ .f32 0x00000000#32))

/-- The parent table with negative entries wrapped around (jnp's indexing convention), as a column of start indices. -/
def parentColumn (parent : (⟨S8192, .i32⟩ : BufTy).Contents (Elt F)) : (⟨S8192x1, .i32⟩ : BufTy).Contents (Elt F) :=
  broadcastInDim S8192x1 ![0] bcast_S8192_S8192x1_0
    (select (cmpi .slt parent (broadcastInDim S8192 ![] bcast_S_S8192 (constantI S_ 32 0#32)))
      (addi parent (broadcastInDim S8192 ![] bcast_S_S8192 (constantI S_ 32 8192#32))) parent)

/-- The parents of the nodes other than the root, likewise. -/
def childParentColumn (parent : (⟨S8192, .i32⟩ : BufTy).Contents (Elt F)) : (⟨S8191x1, .i32⟩ : BufTy).Contents (Elt F) :=
  broadcastInDim S8191x1 ![0] bcast_S8191_S8191x1_0
    (select (cmpi .slt (extractStridedSlice S8191 ![1] parent slices_S8192_S8191_1) (broadcastInDim S8191 ![] bcast_S_S8191 (constantI S_ 32 0#32)))
      (addi (extractStridedSlice S8191 ![1] parent slices_S8192_S8191_1) (broadcastInDim S8191 ![] bcast_S_S8191 (constantI S_ 32 8192#32)))
      (extractStridedSlice S8191 ![1] parent slices_S8192_S8191_1))

/-- Which nodes survive: the parent's ancestor sum is zero; the root always survives. -/
def survives (anc : (⟨S32x8192, .f32⟩ : BufTy).Contents (Elt F)) (parent : (⟨S8192, .i32⟩ : BufTy).Contents (Elt F)) :
    (⟨S32x8192, .i1⟩ : BufTy).Contents (Elt F) :=
  Host.scatter scatter_S32x8192_S1_S32_0_1_1_0 (fun _ b => b)
    (Host.gather gather_S32x8192_S8192x1_S32x8192_0_1_n_n_1_1_321
      (cmpf .oeq anc (broadcastInDim S32x8192 ![] bcast_S_S32x8192 (constant (F := F) S_ .f32 0x00000000#32)))
      (parentColumn (F := F) parent))
    (broadcastInDim S1 ![] bcast_S_S1 (constantI S_ 32 0#32)) (broadcastInDim S32 ![] bcast_S_S32 (constantI S_ 1 1#1))

/-- The leaves of the random cut: surviving nodes none of whose children survive. -/
def boundary (anc : (⟨S32x8192, .f32⟩ : BufTy).Contents (Elt F)) (parent : (⟨S8192, .i32⟩ : BufTy).Contents (Elt F)) :
    (⟨S32x8192, .i1⟩ : BufTy).Contents (Elt F) :=
  andi (survives (F := F) anc parent)
    (cmpf .oeq
      (Host.scatterAdd (F := F) scatter_S32x8192_S8191x1_S32x8191_0_1_1_1
        (broadcastInDim S32x8192 ![] bcast_S_S32x8192 (constant (F := F) S_ .f32 0x00000000#32))
        (childParentColumn (F := F) parent)
        (uitofp (F := F) .f32 (extractStridedSlice S32x8191 ![0, 1] (survives (F := F) anc parent) slices_S32x8192_S32x8191_0_1)))
      (broadcastInDim S32x8192 ![] bcast_S_S32x8192 (constant (F := F) S_ .f32 0x00000000#32)))

end Cert.Cut

end
-- ==== Proof.KernelRun.lean ====
/-
  The kernel program's run, read back.  Before the region the host clears the root's column of the drop indicators;
  the region leaves the ancestor sum of the cleared indicators and the ancestor mask in its result array; after the
  region the host computes the boundary of the cut from that array and the parent table.  So every weakly fair
  execution ends with the result buffer at the boundary of the cut computed from the ancestor sum, the arguments
  unchanged.
-/
import proofs.«141109_j3702261809408_1_alg».proof.Proof.KernelValue
import proofs.«141109_j3702261809408_1_alg».proof.Proof.Cut
import Idealize.ShloMosaic.Lib.StableHlo.Run

noncomputable section

namespace Cert.KernelIdeal.HostRun

open Idealize.ShloMosaic Idealize.ShloMosaic.TcCoe Idealize.SL.Sem Idealize.ShloMosaic.StableHlo
open Idealize.ShloMosaic.Pipeline (Dat)
open Cert.KernelIdeal Cert.KernelIdeal.Gen Cert.AncSpec Cert.KernelIdeal.Result

variable (m : (ℓ : Loc nD τ sig) → Buf (Elt Ideal) ℓ) (ρ : Dev nD → PrngReg)

/-- The drop indicators the region finds are the argument's with the root's column cleared. -/
theorem found_drop (c : Dev nD) :
    (V m c main_v2 : SX.Idx → EReal) = Cert.Cut.clearRoot (F := Ideal) (m ((c : Thread nD τ).loc main_arg0)) := by
  show StableHlo.after hostOps0 (fun b => m (c, b)) (Proc.devRef .tc main_v2) = _
  after_results
  rfl

/-- So the result array is the ancestor sum of the cleared indicators and the ancestor mask argument. -/
theorem result_eq (c : Dev nD) :
    result m c = anc (Cert.Cut.clearRoot (F := Ideal) (m ((c : Thread nD τ).loc main_arg0))) (m ((c : Thread nD τ).loc main_arg1)) := by
  show anc (V m c main_v2) (V m c main_arg1) = _
  rw [found_drop m c, V_main_arg1 m c]

/-- The array the host operations after the region read the ancestor sum from. -/
theorem tail_sum (c : Dev nD) :
    Pipeline.withArrays spec0 c (V0 m c) (fun w => (dats m 0 c).arrAt w cfg0.N) (Proc.devRef .tc main_v3) = result m c :=
  (Pipeline.withArrays_arr spec0 launch0.win.arr_inj c _ _ 2).trans (final m c)

/-- The parent table they read is the argument. -/
theorem tail_parent (c : Dev nD) :
    Pipeline.withArrays spec0 c (V0 m c) (fun w => (dats m 0 c).arrAt w cfg0.N) (Proc.devRef .tc main_arg2)
      = m ((c : Thread nD τ).loc main_arg2) :=
  (Pipeline.withArrays_of_ne _ c (V0 m c) _ main_arg2 (by exact (by decide : ∀ w, Pipeline.arrRef spec0 w ≠ main_arg2))).trans
    (V_main_arg2 m c)

set_option maxRecDepth 8192 in
set_option maxHeartbeats 2000000 in
/-- The result buffer after the host operations that follow the region. -/
theorem tail_eq (c : Dev nD) :
    Pipeline.afterTail₀ cfgs (dats m) 0 (V0 m) [hostOps1] c main_v29
      = Cert.Cut.boundary (F := Ideal) (result m c) (m ((c : Thread nD τ).loc main_arg2)) := by
  unfold Pipeline.afterTail₀
  show StableHlo.after hostOps1 _ (Proc.devRef .tc main_v29) = _
  after_results_simp
  rw [tail_sum m c, tail_parent m c]
  rfl

/-- THE RUN: the result at the boundary of the cut computed from the ancestor sum, the arguments unchanged. -/
theorem run : θ_run defs (onTc (τ := τ) (main (F := Ideal))) ⟨m, fun _ => 0, ρ⟩ fun r => ∀ c : Dev nD,
      r.2.mem ((c.tc : Thread nD τ).loc main_v29)
        = Cert.Cut.boundary (F := Ideal)
            (anc (Cert.Cut.clearRoot (F := Ideal) (m ((c.tc : Thread nD τ).loc main_arg0))) (m ((c.tc : Thread nD τ).loc main_arg1)))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v29 (Pipeline.mem_restRefs_of main_v29 (by decide) (by decide))).trans
        ((tail_eq m c).trans (by rw [result_eq m c])),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.HostRun

end
-- ==== Proof.RefRun.lean ====
/-
  The reference program's run, read back: its @main is a list of 41 host operations, and every weakly fair execution
  ends with the result buffer at their composition applied to the arguments.  The composition is: the root's column
  of the drop indicators cleared, the ancestor sum as ONE matrix product of the cleared indicators with the ancestor
  mask, and the boundary computation of the cut on that sum and the parent table.
-/
import proofs.«141109_j3702261809408_1_alg».proof.Proof.Cut
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- @main's 41 operations, in order. -/
abbrev ops : List (HloOp τ sig (Elt F)) :=
  [ nullary main_c (constantI S_ 32 0#32),
    unary main_c main_v0 (broadcastInDim S1 ![] bcast_S_S1 : (⟨S_, .i32⟩ : BufTy).Contents (Elt F) → (⟨S1, .i32⟩ : BufTy).Contents (Elt F)),
    nullary main_cst (constant S_ .f32 0x00000000#32),
    unary main_cst main_v1 (broadcastInDim S32 ![] bcast_S_S32 : (⟨S_, .f32⟩ : BufTy).Contents (Elt F) → (⟨S32, .f32⟩ : BufTy).Contents (Elt F)),
    ternary main_arg0 main_v0 main_v1 main_v2 ((fun x i u => Host.scatter scatter_S32x8192_S1_S32_0_1_1_0 (fun _ b => b) x i u) : (⟨S32x8192, .f32⟩ : BufTy).Contents (Elt F) → (⟨S1, .i32⟩ : BufTy).Contents (Elt F) → (⟨S32, .f32⟩ : BufTy).Contents (Elt F) → (⟨S32x8192, .f32⟩ : BufTy).Contents (Elt F)),
    binary main_v2 main_arg1 main_v3 ((fun l r => Host.dotGeneral dot_S32x8192_S8192x8192_S32x8192_1_0_0_1_n_n none l r) : (⟨S32x8192, .f32⟩ : BufTy).Contents (Elt F) → (⟨S8192x8192, .f32⟩ : BufTy).Contents (Elt F) → (⟨S32x8192, .f32⟩ : BufTy).Contents (Elt F)),
    nullary main_cst_0 (constant S_ .f32 0x00000000#32),
    unary main_cst_0 main_v4 (broadcastInDim S32x8192 ![] bcast_S_S32x8192 : (⟨S_, .f32⟩ : BufTy).Contents (Elt F) → (⟨S32x8192, .f32⟩ : BufTy).Contents (Elt F)),
    binary main_v3 main_v4 main_v5 (cmpf .oeq : (⟨S32x8192, .f32⟩ : BufTy).Contents (Elt F) → (⟨S32x8192, .f32⟩ : BufTy).Contents (Elt F) → (⟨S32x8192, .i1⟩ : BufTy).Contents (Elt F)),
    nullary main_c_1 (constantI S_ 32 0#32),
    unary main_c_1 main_v6 (broadcastInDim S8192 ![] bcast_S_S8192 : (⟨S_, .i32⟩ : BufTy).Contents (Elt F) → (⟨S8192, .i32⟩ : BufTy).Contents (Elt F)),
    binary main_arg2 main_v6 main_v7 (cmpi .slt : (⟨S8192, .i32⟩ : BufTy).Contents (Elt F) → (⟨S8192, .i32⟩ : BufTy).Contents (Elt F) → (⟨S8192, .i1⟩ : BufTy).Contents (Elt F)),
    nullary main_c_2 (constantI S_ 32 8192#32),
    unary main_c_2 main_v8 (broadcastInDim S8192 ![] bcast_S_S8192 : (⟨S_, .i32⟩ : BufTy).Contents (Elt F) → (⟨S8192, .i32⟩ : BufTy).Contents (Elt F)),
    binary main_arg2 main_v8 main_v9 (addi : (⟨S8192, .i32⟩ : BufTy).Contents (Elt F) → (⟨S8192, .i32⟩ : BufTy).Contents (Elt F) → (⟨S8192, .i32⟩ : BufTy).Contents (Elt F)),
    ternary main_v7 main_v9 main_arg2 main_v10 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v10 main_v11 (broadcastInDim S8192x1 ![0] bcast_S8192_S8192x1_0 : (⟨S8192, .i32⟩ : BufTy).Contents (Elt F) → (⟨S8192x1, .i32⟩ : BufTy).Contents (Elt F)),
    binary main_v5 main_v11 main_v12 ((fun x i => Host.gather gather_S32x8192_S8192x1_S32x8192_0_1_n_n_1_1_321 x i) : (⟨S32x8192, .i1⟩ : BufTy).Contents (Elt F) → (⟨S8192x1, .i32⟩ : BufTy).Contents (Elt F) → (⟨S32x8192, .i1⟩ : BufTy).Contents (Elt F)),
    nullary main_c_3 (constantI S_ 32 0#32),
    unary main_c_3 main_v13 (broadcastInDim S1 ![] bcast_S_S1 : (⟨S_, .i32⟩ : BufTy).Contents (Elt F) → (⟨S1, .i32⟩ : BufTy).Contents (Elt F)),
    nullary main_c_4 (constantI S_ 1 1#1),
    unary main_c_4 main_v14 (broadcastInDim S32 ![] bcast_S_S32 : (⟨S_, .i1⟩ : BufTy).Contents (Elt F) → (⟨S32, .i1⟩ : BufTy).Contents (Elt F)),
    ternary main_v12 main_v13 main_v14 main_v15 ((fun x i u => Host.scatter scatter_S32x8192_S1_S32_0_1_1_0 (fun _ b => b) x i u) : (⟨S32x8192, .i1⟩ : BufTy).Contents (Elt F) → (⟨S1, .i32⟩ : BufTy).Contents (Elt F) → (⟨S32, .i1⟩ : BufTy).Contents (Elt F) → (⟨S32x8192, .i1⟩ : BufTy).Contents (Elt F)),
    unary main_v15 main_v16 ((extractStridedSlice S32x8191 ![0, 1] · slices_S32x8192_S32x8191_0_1) : (⟨S32x8192, .i1⟩ : BufTy).Contents (Elt F) → (⟨S32x8191, .i1⟩ : BufTy).Contents (Elt F)),
    unary main_v16 main_v17 (uitofp .f32 : (⟨S32x8191, .i1⟩ : BufTy).Contents (Elt F) → (⟨S32x8191, .f32⟩ : BufTy).Contents (Elt F)),
    nullary main_cst_5 (constant S_ .f32 0x00000000#32),
    unary main_cst_5 main_v18 (broadcastInDim S32x8192 ![] bcast_S_S32x8192 : (⟨S_, .f32⟩ : BufTy).Contents (Elt F) → (⟨S32x8192, .f32⟩ : BufTy).Contents (Elt F)),
    unary main_arg2 main_v19 ((extractStridedSlice S8191 ![1] · slices_S8192_S8191_1) : (⟨S8192, .i32⟩ : BufTy).Contents (Elt F) → (⟨S8191, .i32⟩ : BufTy).Contents (Elt F)),
    nullary main_c_6 (constantI S_ 32 0#32),
    unary main_c_6 main_v20 (broadcastInDim S8191 ![] bcast_S_S8191 : (⟨S_, .i32⟩ : BufTy).Contents (Elt F) → (⟨S8191, .i32⟩ : BufTy).Contents (Elt F)),
    binary main_v19 main_v20 main_v21 (cmpi .slt : (⟨S8191, .i32⟩ : BufTy).Contents (Elt F) → (⟨S8191, .i32⟩ : BufTy).Contents (Elt F) → (⟨S8191, .i1⟩ : BufTy).Contents (Elt F)),
    nullary main_c_7 (constantI S_ 32 8192#32),
    unary main_c_7 main_v22 (broadcastInDim S8191 ![] bcast_S_S8191 : (⟨S_, .i32⟩ : BufTy).Contents (Elt F) → (⟨S8191, .i32⟩ : BufTy).Contents (Elt F)),
    binary main_v19 main_v22 main_v23 (addi : (⟨S8191, .i32⟩ : BufTy).Contents (Elt F) → (⟨S8191, .i32⟩ : BufTy).Contents (Elt F) → (⟨S8191, .i32⟩ : BufTy).Contents (Elt F)),
    ternary main_v21 main_v23 main_v19 main_v24 (select : (⟨S8191, .i1⟩ : BufTy).Contents (Elt F) → (⟨S8191, .i32⟩ : BufTy).Contents (Elt F) → (⟨S8191, .i32⟩ : BufTy).Contents (Elt F) → (⟨S8191, .i32⟩ : BufTy).Contents (Elt F)),
    unary main_v24 main_v25 (broadcastInDim S8191x1 ![0] bcast_S8191_S8191x1_0 : (⟨S8191, .i32⟩ : BufTy).Contents (Elt F) → (⟨S8191x1, .i32⟩ : BufTy).Contents (Elt F)),
    ternary main_v18 main_v25 main_v17 main_v26 ((fun x i u => Host.scatterAdd scatter_S32x8192_S8191x1_S32x8191_0_1_1_1 x i u) : (⟨S32x8192, .f32⟩ : BufTy).Contents (Elt F) → (⟨S8191x1, .i32⟩ : BufTy).Contents (Elt F) → (⟨S32x8191, .f32⟩ : BufTy).Contents (Elt F) → (⟨S32x8192, .f32⟩ : BufTy).Contents (Elt F)),
    nullary main_cst_8 (constant S_ .f32 0x00000000#32),
    unary main_cst_8 main_v27 (broadcastInDim S32x8192 ![] bcast_S_S32x8192 : (⟨S_, .f32⟩ : BufTy).Contents (Elt F) → (⟨S32x8192, .f32⟩ : BufTy).Contents (Elt F)),
    binary main_v26 main_v27 main_v28 (cmpf .oeq : (⟨S32x8192, .f32⟩ : BufTy).Contents (Elt F) → (⟨S32x8192, .f32⟩ : BufTy).Contents (Elt F) → (⟨S32x8192, .i1⟩ : BufTy).Contents (Elt F)),
    binary main_v15 main_v28 main_v29 (andi : (⟨S32x8192, .i1⟩ : BufTy).Contents (Elt F) → (⟨S32x8192, .i1⟩ : BufTy).Contents (Elt F) → (⟨S32x8192, .i1⟩ : BufTy).Contents (Elt F)) ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., nullary_bufs_sub .., unary_bufs_sub .., ternary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., nullary_bufs_sub .., unary_bufs_sub .., ternary_bufs_sub .., unary_bufs_sub .., unary_bufs_sub .., nullary_bufs_sub .., unary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., binary_bufs_sub ..⟩

set_option maxRecDepth 8192 in
set_option maxHeartbeats 2000000 in
/-- On every device, from any memory with zero counters: every weakly fair execution of @main terminates with the
    result at the boundary of the cut computed from the one-product ancestor sum, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29)
        = Cert.Cut.boundary (F := F)
            (Host.dotGeneral dot_S32x8192_S8192x8192_S32x8192_1_0_0_1_n_n none
              (Cert.Cut.clearRoot (F := F) (m ((c.tc : Thread nD τ).loc main_arg0))) (m ((c.tc : Thread nD τ).loc main_arg1)))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v29).trans (by after_results_simp <;> rfl),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.HostRun

end
-- ==== Proof.RefSum.lean ====
/-
  The reference's one matrix product is the ancestor sum: on the extended reals the host's `dot_general` of a
  `[32, 8192]` array with an `[8192, 8192]` array, contracting the first's columns with the second's rows, has at
  entry `(p, q)` the value `∑ⱼ X(p, j) · M(j, q)` over all 8192 `j`.
-/
import proofs.«141109_j3702261809408_1_alg».proof.Proof.AncSpec
import proofs.«141109_j3702261809408_1_alg».proof.Proof.LibPlainDot
import proofs.«141109_j3702261809408_1_alg».proof.Proof.Gen.ReferenceIdeal

noncomputable section

namespace Cert.ReferenceIdeal.RefSum

open Idealize.ShloMosaic Idealize.ShloMosaic.ValueIdx Cert.ReferenceIdeal Cert.ReferenceIdeal.Gen

theorem dot_eq_anc (X : FVec Ideal S32x8192 .f32) (M : FVec Ideal S8192x8192 .f32) :
    Host.dotGeneral (F := Ideal) dot_S32x8192_S8192x8192_S32x8192_1_0_0_1_n_n none X M = Cert.AncSpec.anc X M := by
  funext i
  obtain ⟨p, q, rfl⟩ : ∃ (p : Fin 32) (q : Fin 8192), i = ix2 p q := ⟨i 0, i 1, eq_ix2 i⟩
  exact dotGeneral_plain_apply _ rfl none .single X M p q

end Cert.ReferenceIdeal.RefSum

end
-- ==== Proof.lean ====
/-
  The claim of this certificate: the RandomCut boundary computed with a tiled matrix-unit kernel equals the one
  computed with a single matrix product, on the extended reals.

  Both programs clear the root's column of the drop indicators `drop : [32, 8192]`, form the ancestor sum
  `anc(p, q) = ∑ⱼ drop'(p, j) · M(j, q)` with the ancestor mask `M : [8192, 8192]`, and then mark the leaves of the
  cut from `anc == 0` and the parent table by the same host operations (`Cut.boundary`).  The reference forms the
  sum as one matrix product.  The kernel walks a 4 × 8 grid: for each block of 2048 columns it accumulates, over
  eight reduction steps, the products of runs of 1024 nodes in a scratch accumulator (zeroed at step 0, each operand
  narrowed to bf16 first, which is the identity on extended reals) and copies the accumulator to the output block at
  step 7.  After step `k` the accumulator holds the sum over the first `1024·(k+1)` nodes (`Running.scratch_eq`), so
  each output block is the ancestor sum of its columns, the four blocks tile the result (`Result.final`), and the
  two programs apply `Cut.boundary` to the same array.  The only law used is that addition of extended reals is
  commutative and associative (a sum regrouped into runs): no finiteness of the inputs is needed, and the
  precondition is never opened.

  The three frame conjuncts: the two kernels' frames are the generated ones; the reference's is its run with the
  result forgotten.  The idealization rewrote nothing, so `preserves` is `True`.
-/
import proofs.«141109_j3702261809408_1_alg».proof.Defs
import proofs.«141109_j3702261809408_1_alg».proof.Proof.Gen.Kernel
import proofs.«141109_j3702261809408_1_alg».proof.Proof.Gen.Kernel.Skeleton
import proofs.«141109_j3702261809408_1_alg».proof.Proof.Gen.Kernel.Launch
import proofs.«141109_j3702261809408_1_alg».proof.Proof.Gen.Kernel.Points
import proofs.«141109_j3702261809408_1_alg».proof.Proof.Gen.Kernel.Frame
import proofs.«141109_j3702261809408_1_alg».proof.Proof.Gen.KernelIdeal
import proofs.«141109_j3702261809408_1_alg».proof.Proof.Gen.KernelIdeal.Skeleton
import proofs.«141109_j3702261809408_1_alg».proof.Proof.Gen.KernelIdeal.Launch
import proofs.«141109_j3702261809408_1_alg».proof.Proof.Gen.KernelIdeal.Points
import proofs.«141109_j3702261809408_1_alg».proof.Proof.Gen.KernelIdeal.Frame
import proofs.«141109_j3702261809408_1_alg».proof.Proof.Gen.ReferenceIdeal
import proofs.«141109_j3702261809408_1_alg».proof.Proof.Gen.Pre_finite_inputs
import proofs.«141109_j3702261809408_1_alg».proof.Proof.KernelRun
import proofs.«141109_j3702261809408_1_alg».proof.Proof.RefRun
import proofs.«141109_j3702261809408_1_alg».proof.Proof.RefSum
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, keeping only that the arguments end unchanged. -/
theorem frame_referenceIdeal : Cert.frame_ReferenceIdeal := fun m ρ _ =>
  (θ_run Cert.ReferenceIdeal.defs _ _).mono (fun _ h c => (h c).2) (Cert.ReferenceIdeal.HostRun.run (F := Ideal) m ρ)

theorem preserves : Cert.preserves_Kernel_KernelIdeal := trivial

/-- Both runs end with the result at `Cut.boundary` of the ancestor sum of the cleared drop indicators and the
    ancestor mask — the kernel's accumulated in runs of 1024 nodes, the reference's one matrix product, which is that
    sum (`RefSum.dot_eq_anc`) — from arguments that agree. -/
theorem algebraic : Cert.algebraic_KernelIdeal_ReferenceIdeal := by
  intro m ρ m' ρ' _ hagree
  refine ⟨_, Cert.KernelIdeal.HostRun.run m ρ, ?_⟩
  refine (θ_run Cert.ReferenceIdeal.defs _ _).mono (fun _ h c => ⟨(h c).1.trans ?_, (h c).2⟩)
    (Cert.ReferenceIdeal.HostRun.run (F := Ideal) m' ρ')
  rw [(hagree c).1, (hagree c).2.1, (hagree c).2.2, Cert.ReferenceIdeal.RefSum.dot_eq_anc]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
